-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16384 : Shape := ⟨2, ![2048, 16384]⟩
abbrev S128x128 : Shape := ⟨2, ![128, 128]⟩
abbrev S_ : Shape := ⟨0, ![]⟩

class Facts : Prop where
  bcast_S_S2048x16384 : S_.BroadcastsInDim S2048x16384 (![] : Fin 0 → Fin S2048x16384.rank)
  reducesTo_S2048x16384_S_d0_1 : S2048x16384.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S2048x16384 .f32) (main_arg1 : FVec F S128x128 .f32) (main_arg2 : FVec F S128x128 .f32) : IVec S_ 1 :=
  let main_v0 : FVec F S2048x16384 .f32 := Host.absf main_arg0
  let main_cst : FVec F S_ .f32 := constant S_ .f32 0x7F800000#32
  let main_v1 : FVec F S2048x16384 .f32 := broadcastInDim S2048x16384 ![] bcast_S_S2048x16384 main_cst
  let main_v2 : IVec S2048x16384 1 := cmpf .olt main_v0 main_v1
  let main_c : IVec S_ 1 := constantI S_ 1 1#1
  let main_v3 : IVec S_ 1 := (fun x v => Host.reduce IntOp.andi x v reducesTo_S2048x16384_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S2048x16384 : Shape := ⟨2, ![2048, 16384]⟩
abbrev S128x128 : Shape := ⟨2, ![128, 128]⟩
abbrev S2048x128x128 : Shape := ⟨3, ![2048, 128, 128]⟩
abbrev S64x128x128 : Shape := ⟨3, ![64, 128, 128]⟩
abbrev S8192x128 : Shape := ⟨2, ![8192, 128]⟩

abbrev nBuf : Space → Nat
  | .hbm => 8
  | .vmem => 6
  | .smem => 0
  | _ => 0

abbrev bufTy : (tb : Table) → Fin (tcTables nBuf tb) → BufTy
  | .hbm, ⟨0, _⟩ => ⟨S2048x16384, .f32⟩
  | .hbm, ⟨1, _⟩ => ⟨S128x128, .f32⟩
  | .hbm, ⟨2, _⟩ => ⟨S128x128, .f32⟩
  | .hbm, ⟨3, _⟩ => ⟨S2048x128x128, .f32⟩
  | .hbm, ⟨4, _⟩ => ⟨S128x128, .bf16⟩
  | .hbm, ⟨5, _⟩ => ⟨S128x128, .bf16⟩
  | .hbm, ⟨6, _⟩ => ⟨S2048x128x128, .f32⟩
  | .hbm, ⟨7, _⟩ => ⟨S2048x16384, .f32⟩
  | .local _ .vmem, ⟨0, _⟩ => ⟨S64x128x128, .f32⟩
  | .local _ .vmem, ⟨1, _⟩ => ⟨S64x128x128, .f32⟩
  | .local _ .vmem, ⟨2, _⟩ => ⟨S128x128, .bf16⟩
  | .local _ .vmem, ⟨3, _⟩ => ⟨S128x128, .bf16⟩
  | .local _ .vmem, ⟨4, _⟩ => ⟨S64x128x128, .f32⟩
  | .local _ .vmem, ⟨5, _⟩ => ⟨S64x128x128, .f32⟩
  | _, _ => ⟨S2048x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2048x16384_S2048x128x128 : S2048x16384.ShapeCasts S2048x128x128
  bitsLt_bf16_f32 : FTy.bits .bf16 < FTy.bits .f32
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S64x128x128_S8192x128 : S64x128x128.ShapeCasts S8192x128
  shapeCasts_S8192x128_S64x128x128 : S8192x128.ShapeCasts S64x128x128
  transposes_S64x128x128_p0_2_1_S64x128x128 : S64x128x128.Transposes [0, 2, 1] S64x128x128
  shapeCasts_S2048x128x128_S2048x16384 : S2048x128x128.ShapeCasts S2048x16384
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S2048x128x128.size a
  hwx0_0 : ∀ i : grid0.Coords, EltTy.bits .f32 = 32 ∨ (Rect.block (s := S2048x128x128) S64x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x128x128.size a ≤ S2048x128x128.size a
  hwx0_3 : ∀ i : grid0.Coords, EltTy.bits .f32 = 32 ∨ (Rect.block (s := S2048x128x128) S64x128x128.size (cc0_transform_3 i) (hinb0_3 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S64x128x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2048x16384 : Shape := ⟨2, ![2048, 16384]⟩
abbrev S128x128 : Shape := ⟨2, ![128, 128]⟩
abbrev S128x1x128x1 : Shape := ⟨4, ![128, 1, 128, 1]⟩
abbrev S1x128x1x128 : Shape := ⟨4, ![1, 128, 1, 128]⟩
abbrev S128x128x128x128 : Shape := ⟨4, ![128, 128, 128, 128]⟩
abbrev S16384x16384 : Shape := ⟨2, ![16384, 16384]⟩

abbrev nBuf : Space → Nat
  | .hbm => 10
  | .vmem => 0
  | .smem => 0
  | _ => 0

abbrev bufTy : (tb : Table) → Fin (tcTables nBuf tb) → BufTy
  | .hbm, ⟨0, _⟩ => ⟨S2048x16384, .f32⟩
  | .hbm, ⟨1, _⟩ => ⟨S128x128, .f32⟩
  | .hbm, ⟨2, _⟩ => ⟨S128x128, .f32⟩
  | .hbm, ⟨3, _⟩ => ⟨S128x1x128x1, .f32⟩
  | .hbm, ⟨4, _⟩ => ⟨S1x128x1x128, .f32⟩
  | .hbm, ⟨5, _⟩ => ⟨S128x128x128x128, .f32⟩
  | .hbm, ⟨6, _⟩ => ⟨S128x128x128x128, .f32⟩
  | .hbm, ⟨7, _⟩ => ⟨S128x128x128x128, .f32⟩
  | .hbm, ⟨8, _⟩ => ⟨S16384x16384, .f32⟩
  | .hbm, ⟨9, _⟩ => ⟨S2048x16384, .f32⟩
  | _, _ => ⟨S2048x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v0 : Ref sig .tc := ⟨.hbm, 8, rfl⟩
abbrev main_v1 : Ref sig .tc := ⟨.hbm, 9, rfl⟩

abbrev nD : Nat := 1
abbrev τ : Topo := Topo.v7x

variable {F : FTy → Type} [FloatOps F]

class Facts₀ : Prop where
  bcast_S128x128_S128x1x128x1_0_2 : S128x128.BroadcastsInDim S128x1x128x1 (![0, 2] : Fin 2 → Fin S128x1x128x1.rank)
  bcast_S128x128_S1x128x1x128_1_3 : S128x128.BroadcastsInDim S1x128x1x128 (![1, 3] : Fin 2 → Fin S1x128x1x128.rank)
  bcast_S128x1x128x1_S128x128x128x128_0_1_2_3 : S128x1x128x1.BroadcastsInDim S128x128x128x128 (![0, 1, 2, 3] : Fin 4 → Fin S128x128x128x128.rank)
  bcast_S1x128x1x128_S128x128x128x128_0_1_2_3 : S1x128x1x128.BroadcastsInDim S128x128x128x128 (![0, 1, 2, 3] : Fin 4 → Fin S128x128x128x128.rank)
  shapeCasts_S128x128x128x128_S16384x16384 : S128x128x128x128.ShapeCasts S16384x16384
  dot_S2048x16384_S16384x16384_S2048x16384_1_0_0_1_n_n_wf : DotDims.WF S2048x16384 S16384x16384 S2048x16384 [1] [0] [0] [1] [] []

variable [Facts₀]

def dot_S2048x16384_S16384x16384_S2048x16384_1_0_0_1_n_n : DotDims S2048x16384 S16384x16384 S2048x16384 where
  lhsContracting := [1]
  rhsContracting := [0]
  lhsNonContracting := [0]
  rhsNonContracting := [1]
  lhsBatch := []
  rhsBatch := []
  wf := dot_S2048x16384_S16384x16384_S2048x16384_1_0_0_1_n_n_wf

class Facts : Prop extends Facts₀ where

variable [Facts]
-- ==== Proof.Payload.lean ====
/-
  The kernel body's arithmetic, read at one index of its output block.

  The body loads a block `X` of 64 tokens, each a 128 × 128 matrix `X[τ]` (coordinates `(a, b)`), and the two
  128 × 128 factors `U` and `V`. It flattens `X` to rows `(τ, a)`, multiplies by `V` (contracting `b`), swaps the
  last two axes, flattens to rows `(τ, j₂)`, multiplies by `U` (contracting `a`), and swaps back. At the ideal values the
  changes of float format are identities, a matrix product into a zero accumulator is the plain sum of products, and the
  reshapes and transposes only move entries. So the entry at `(τ, j₁, j₂)` of what the body stores is
      Σ_a (Σ_b X[τ, a, b] · V[b, j₂]) · U[a, j₁].
-/
import proofs.«148141_j52364241273353_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx

/-- Row `(τ, a)` of the block flattened to 8192 rows. -/
def row (τ : Fin 64) (a : Fin 128) : Fin 8192 := ⟨τ.val * 128 + a.val, by have := τ.isLt; have := a.isLt; omega⟩

/-- Flattening the first two axes: row `(τ, a)`, column `b` of the flat block is entry `(τ, a, b)`. -/
theorem flatten_apply {α : Type} (x : S64x128x128.Idx → α) (h : S64x128x128.ShapeCasts S8192x128) (τ : Fin 64) (a b : Fin 128) :
    shapeCast S8192x128 x h (ix2 (row τ a) b) = x (ix3 τ a b) :=
  shapeCast_apply x h _ _ (by
    rw [Shape.rowMajor_val_three, Shape.rowMajor_val_two]
    show (τ.val * 128 + a.val) * 128 + b.val = (τ.val * 128 + a.val) * 128 + b.val
    rfl)

/-- Splitting the rows back: entry `(τ, a, b)` of the unflattened block is row `(τ, a)`, column `b`. -/
theorem unflatten_apply {α : Type} (y : S8192x128.Idx → α) (h : S8192x128.ShapeCasts S64x128x128) (τ : Fin 64) (a b : Fin 128) :
    shapeCast S64x128x128 y h (ix3 τ a b) = y (ix2 (row τ a) b) :=
  shapeCast_apply y h _ _ (by
    rw [Shape.rowMajor_val_two, Shape.rowMajor_val_three]
    show (τ.val * 128 + a.val) * 128 + b.val = (τ.val * 128 + a.val) * 128 + b.val
    rfl)

/-! ## The matrix product of a flat block with a 128 × 128 factor -/

theorem lhs_row (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_col (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_row (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_col (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- At the ideal values the product into a zero accumulator, at row `p` and column `q`, is the sum over the contracted
    coordinate of the row's entries times the column's. -/
theorem matmul_zero_apply (l : FVec Ideal S8192x128 .bf16) (r : FVec Ideal S128x128 .bf16) (p : Fin 8192) (q : Fin 128) :
    matmul dot_S8192x128_S128x128_S8192x128_1_0_0_1_n_n none l r (constant (F := Ideal) S8192x128 .f32 0x00000000#32) (ix2 p q)
      = ∑ k : Fin 128, l (ix2 p k) * r (ix2 k q) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 p q) ((contrEquiv1 dot_S8192x128_S128x128_S8192x128_1_0_0_1_n_n 128 rfl rfl).symm k) = ix2 p k := funext fun a => Fin.ext (by
    match a with
    | ⟨0, _⟩ => exact lhs_row _ _
    | ⟨1, _⟩ => exact (lhs_col _ _).trans hk)
  have er : dot_S8192x128_S128x128_S8192x128_1_0_0_1_n_n.rhsIdx (ix2 p q) ((contrEquiv1 dot_S8192x128_S128x128_S8192x128_1_0_0_1_n_n 128 rfl rfl).symm k) = ix2 k q := funext fun a => Fin.ext (by
    match a with
    | ⟨0, _⟩ => exact (rhs_row _ _).trans hk
    | ⟨1, _⟩ => exact rhs_col _ _)
  rw [el, er]

/-! ## The whole body -/

/-- The first product, unflattened: entry `(τ, a, j₂)` is `Σ_b X[τ, a, b] · V[b, j₂]`. -/
theorem first_stage (x0 : FVec Ideal S64x128x128 .f32) (v : FVec Ideal S128x128 .bf16)
    (h1 : S64x128x128.ShapeCasts S64x128x128) (h2 : S128x128.ShapeCasts S128x128) (h3 : S64x128x128.ShapeCasts S8192x128)
    (h4 : S8192x128.ShapeCasts S64x128x128) (hb : FTy.bits .bf16 < FTy.bits .f32) (τ : Fin 64) (a j2 : Fin 128) :
    shapeCast S64x128x128 (matmul dot_S8192x128_S128x128_S8192x128_1_0_0_1_n_n none
        (shapeCast S8192x128 (truncf (F := Ideal) .bf16 (shapeCast S64x128x128 x0 h1) hb) h3) (shapeCast S128x128 v h2)
        (constant (F := Ideal) S8192x128 .f32 0x00000000#32)) h4 (ix3 τ a j2)
      = ∑ b : Fin 128, x0 (ix3 τ a b) * v (ix2 b j2) := by
  refine (unflatten_apply _ h4 τ a j2).trans ?_
  refine (matmul_zero_apply _ _ (row τ a) j2).trans ?_
  refine Finset.sum_congr rfl fun b _ => ?_
  rw [flatten_apply _ h3 τ a b, shapeCast_self x0, shapeCast_self v]
  rfl

/-- What the body stores, at `(τ, j₁, j₂)`: `Σ_a (Σ_b X[τ, a, b] · V[b, j₂]) · U[a, j₁]`. -/
theorem pay_apply (x0 : Vec Ideal S64x128x128 .f32) (u v : Vec Ideal S128x128 .bf16) (τ : Fin 64) (j1 j2 : Fin 128) :
    k0_pay1 (F := Ideal) x0 u v (ix3 τ j1 j2)
      = ∑ a : Fin 128, (∑ b : Fin 128, x0 (ix3 τ a b) * v (ix2 b j2)) * u (ix2 a j1) := by
  unfold k0_pay1
  dsimp only
  refine (transpose_ix3_021_apply _ _ τ j1 j2).trans ?_
  refine (unflatten_apply _ _ τ j2 j1).trans ?_
  refine (matmul_zero_apply _ _ (row τ j2) j1).trans ?_
  refine Finset.sum_congr rfl fun a _ => ?_
  rw [flatten_apply _ _ τ j2 a, shapeCast_self u]
  refine congrArg (· * u (ix2 a j1)) ?_
  refine (transpose_ix3_021_apply _ _ τ j2 a).trans ?_
  exact first_stage x0 v _ _ _ _ _ τ a j2

end Cert.KernelIdeal.Body

end
-- ==== Proof.KronLaw.lean ====
/-
  The algebraic law that joins the two programs, on the extended reals.

  The kernel factors the product with a Kronecker matrix through two small contractions: for a row `x` of
  length 128·128, a column `u` of the first factor and a column `v` of the second,
      Σ_a (Σ_b x[a·128+b] · v[b]) · u[a].
  The reference materializes the Kronecker product and contracts once:
      Σ_k x[k] · (u[k / 128] · v[k % 128]).
  The two agree whenever every entry is a real number: the inner sum distributes over the product with `u[a]`
  (which fails at the infinities, hence the finiteness hypotheses), and the flat index `k` is the pair
  `(k / 128, k % 128)`.
-/
import Idealize.ShloMosaic.PureOps.Ideal

namespace Cert.KronLaw

open Finset

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The flat position of the pair `(a, b)` in a row of length 128·128. -/
def flat (a b : Fin 128) : Fin 16384 := ⟨a.val * 128 + b.val, by have := a.isLt; have := b.isLt; omega⟩
/-- The leading coordinate of a flat position. -/
def hi (k : Fin 16384) : Fin 128 := ⟨k.val / 128, by have := k.isLt; omega⟩
/-- The trailing coordinate of a flat position. -/
def lo (k : Fin 16384) : Fin 128 := ⟨k.val % 128, by omega⟩

theorem hi_flat (a b : Fin 128) : hi (flat a b) = a := Fin.ext (by
  have := a.isLt; have := b.isLt; show (a.val * 128 + b.val) / 128 = a.val; omega)
theorem lo_flat (a b : Fin 128) : lo (flat a b) = b := Fin.ext (by
  have := a.isLt; have := b.isLt; show (a.val * 128 + b.val) % 128 = b.val; omega)
theorem flat_hi_lo (k : Fin 16384) : flat (hi k) (lo k) = k := Fin.ext (by
  show k.val / 128 * 128 + k.val % 128 = k.val; omega)

/-- A flat position is its pair of coordinates. -/
def splitEquiv : Fin 16384 ≃ Fin 128 × Fin 128 where
  toFun k := (hi k, lo k)
  invFun p := flat p.1 p.2
  left_inv k := flat_hi_lo k
  right_inv p := Prod.ext (hi_flat p.1 p.2) (lo_flat p.1 p.2)

/-- The law over the reals, read in the extended reals. -/
theorem kron_law_real (xr : Fin 16384 → ℝ) (ur vr : Fin 128 → ℝ) :
    ∑ a : Fin 128, (∑ b : Fin 128, (xr (flat a b) : EReal) * (vr b : EReal)) * (ur a : EReal)
      = ∑ k : Fin 16384, (xr k : EReal) * ((ur (hi k) : EReal) * (vr (lo k) : EReal)) := by
  rw [← Equiv.sum_comp splitEquiv.symm (fun k : Fin 16384 => (xr k : EReal) * ((ur (hi k) : EReal) * (vr (lo k) : EReal))),
    Fintype.sum_prod_type]
  refine Finset.sum_congr rfl fun a _ => ?_
  show _ = ∑ b : Fin 128, (xr (flat a b) : EReal) * ((ur (hi (flat a b)) : EReal) * (vr (lo (flat a b)) : EReal))
  simp only [hi_flat, lo_flat, ← EReal.coe_mul, ← coe_sum]
  rw [EReal.coe_eq_coe_iff, Finset.sum_mul]
  exact Finset.sum_congr rfl fun b _ => by ring

/-- The law on the extended reals, for entries that are all real numbers. -/
theorem kron_law (x : Fin 16384 → EReal) (u v : Fin 128 → EReal)
    (hx : ∀ k, ∃ r : ℝ, x k = (r : EReal)) (hu : ∀ a, ∃ r : ℝ, u a = (r : EReal)) (hv : ∀ b, ∃ r : ℝ, v b = (r : EReal)) :
    ∑ a : Fin 128, (∑ b : Fin 128, x (flat a b) * v b) * u a = ∑ k : Fin 16384, x k * (u (hi k) * v (lo k)) := by
  choose xr hxr using hx
  choose ur hur using hu
  choose vr hvr using hv
  simp only [hxr, hur, hvr]
  exact kron_law_real xr ur vr

end Cert.KronLaw
-- ==== Proof.Spec.lean ====
/-
  The result, as one function of the three argument arrays, in the two arrangements the programs compute it in.

  `x` has 2048 rows of length 128·128; `U` and `V` are 128 × 128. Column `j` of the result pairs with column
  `j / 128` of `U` and column `j % 128` of `V`.
  * `twoStage`: contract each row, read as a 128 × 128 matrix, first with `V` and then with `U`;
  * `flatSum`: contract each row once with the Kronecker product, whose entry `(k, j)` is
    `U[k / 128, j / 128] · V[k % 128, j % 128]`.
  On arrays whose entries are all real numbers the two are one function (`KronLaw.kron_law`).
-/
import proofs.«148141_j52364241273353_2_alg».proof.Proof.KronLaw
import Idealize.ShloMosaic.Lib.ValueIdx

noncomputable section

namespace Cert.Spec

open Idealize.ShloMosaic Idealize.ShloMosaic.ValueIdx Cert.KronLaw

/-- The shape of `x` and of the result. -/
abbrev Sx : Shape := ⟨2, ![2048, 16384]⟩
/-- The shape of each factor. -/
abbrev Sf : Shape := ⟨2, ![128, 128]⟩

/-- The result, contracting with `V` and then with `U`. -/
def twoStage (x : Sx.Idx → EReal) (U V : Sf.Idx → EReal) : Sx.Idx → EReal := fun i =>
  ∑ a : Fin 128, (∑ b : Fin 128, x (ix2 (i 0) (flat a b)) * V (ix2 b (lo (i 1)))) * U (ix2 a (hi (i 1)))

/-- The result, contracting once with the Kronecker product. -/
def flatSum (x : Sx.Idx → EReal) (U V : Sf.Idx → EReal) : Sx.Idx → EReal := fun i =>
  ∑ k : Fin 16384, x (ix2 (i 0) k) * (U (ix2 (hi k) (hi (i 1))) * V (ix2 (lo k) (lo (i 1))))

/-- On arrays of real numbers the two arrangements agree. -/
theorem twoStage_eq_flatSum (x : Sx.Idx → EReal) (U V : Sf.Idx → EReal)
    (hx : ∀ i, ∃ r : ℝ, x i = (r : EReal)) (hU : ∀ i, ∃ r : ℝ, U i = (r : EReal)) (hV : ∀ i, ∃ r : ℝ, V i = (r : EReal)) :
    twoStage x U V = flatSum x U V :=
  funext fun i => kron_law (fun k => x (ix2 (i 0) k)) (fun a => U (ix2 a (hi (i 1)))) (fun b => V (ix2 b (lo (i 1))))
    (fun _ => hx _) (fun _ => hU _) (fun _ => hV _)

end Cert.Spec

end
-- ==== Proof.Blocks.lean ====
/-
  The kernel's run, read as a value: what the result array holds after it.

  The region's output is a 2048 × 128 × 128 array written in 32 blocks of 64 tokens. Grid point `t` reads tokens
  `64 t … 64 t + 63` of the reshaped `x` and the whole of both factors, and writes the same tokens of the output. By the
  body's arithmetic each block is the restriction of ONE function of the arrays the region finds,
      (t, j₁, j₂) ↦ Σ_a (Σ_b X[t, a, b] · V[b, j₂]) · U[a, j₁],
  and the 32 blocks cover the array, so the array ends holding that function. The host lines around the region only
  re-lay the data: `x` is reshaped to 2048 × 128 × 128 before it (entry `(t, a, b)` is `x[t, a·128 + b]`), the two
  factors change float format (the identity at the ideal values), and the output is reshaped back to 2048 × 16384 after it
  (entry `(t, j)` is the output's `(t, j / 128, j % 128)`).
-/
import proofs.«148141_j52364241273353_2_alg».proof.Proof.Gen.KernelIdeal.Frame
import proofs.«148141_j52364241273353_2_alg».proof.Proof.Payload
import proofs.«148141_j52364241273353_2_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen Idealize.ShloMosaic.ValueIdx Cert.KronLaw

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The region's output array as one function of the arrays the region finds. -/
def region (X : S2048x128x128.Idx → EReal) (U V : S128x128.Idx → EReal) : S2048x128x128.Idx → EReal := fun i =>
  ∑ a : Fin 128, (∑ b : Fin 128, X (ix3 (i 0) a b) * V (ix2 b (i 2))) * U (ix2 a (i 1))

/-- The printed index maps over the grid: the token windows move with the point, the factors stay. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The body's arithmetic at any index of the block, by its three coordinates. -/
theorem pay_at (x0 : Vec Ideal S64x128x128 .f32) (u v : Vec Ideal S128x128 .bf16) (y : S64x128x128.Idx) :
    k0_pay1 (F := Ideal) x0 u v y
      = ∑ a : Fin 128, (∑ b : Fin 128, x0 (ix3 (y 0) a b) * v (ix2 b (y 2))) * u (ix2 a (y 1)) := by
  conv_lhs => rw [eq_ix3 y]
  exact Body.pay_apply x0 u v (y 0) (y 1) (y 2)

/-- The token window's block at point `t` is tokens `64 t …` of the reshaped `x`. -/
theorem iblk0_apply (c : Dev nD) (t : Fin cfg0.N) (x : S64x128x128.Idx) (k : S2048x128x128.Idx)
    (h0 : (k 0).val = t.val * 64 + (x 0).val) (h1 : (k 1).val = (x 1).val) (h2 : (k 2).val = (x 2).val) :
    (iblk m c 0 t : Vec Ideal S64x128x128 .f32) x = (V m c main_v0 : S2048x128x128.Idx → EReal) k := by
  obtain ⟨e0, e1, e2, -⟩ := idx_facts t
  unfold iblk
  rw [View.read_apply]
  show V m c main_v0 _ = V m c main_v0 _
  congr 1
  funext a
  apply Fin.ext
  match a with
  | ⟨0, _⟩ => show win0_0.index t (0 : Fin 3) * 64 + 1 * (x 0).val = (k 0).val; rw [e0, h0]; omega
  | ⟨1, _⟩ => show win0_0.index t (1 : Fin 3) * 128 + 1 * (x 1).val = (k 1).val; rw [e1, h1]; omega
  | ⟨2, _⟩ => show win0_0.index t (2 : Fin 3) * 128 + 1 * (x 2).val = (k 2).val; rw [e2, h2]; omega

/-- The first factor's block at every point is the whole factor. -/
theorem iblk1_apply (c : Dev nD) (t : Fin cfg0.N) (x : S128x128.Idx) :
    (iblk m c 1 t : Vec Ideal S128x128 .bf16) x = (V m c main_v1 : S128x128.Idx → EReal) x := by
  obtain ⟨-, -, -, e0, e1, -⟩ := idx_facts t
  unfold iblk
  rw [View.read_apply]
  show V m c main_v1 _ = V m c main_v1 _
  congr 1
  funext a
  apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The second factor's block at every point is the whole factor. -/
theorem iblk2_apply (c : Dev nD) (t : Fin cfg0.N) (x : S128x128.Idx) :
    (iblk m c 2 t : Vec Ideal S128x128 .bf16) x = (V m c main_v2 : S128x128.Idx → EReal) x := by
  obtain ⟨-, -, -, -, -, e0, e1, -⟩ := idx_facts t
  unfold iblk
  rw [View.read_apply]
  show V m c main_v2 _ = V m c main_v2 _
  congr 1
  funext a
  apply Fin.ext
  match a with
  | ⟨0, _⟩ => show win0_2.index t (0 : Fin 2) * 128 + 1 * (x 0).val = (x 0).val; rw [e0]; omega
  | ⟨1, _⟩ => show win0_2.index t (1 : Fin 2) * 128 + 1 * (x 1).val = (x 1).val; rw [e1]; omega

/-- Where the output window's block at point `t` sits in the output array. -/
theorem emb_out (t : Fin cfg0.N) (y : S64x128x128.Idx) :
    ((((cfg0.win 3).blk t).view.emb y : S2048x128x128.Idx) 0).val = t.val * 64 + (y 0).val
    ∧ ((((cfg0.win 3).blk t).view.emb y : S2048x128x128.Idx) 1).val = (y 1).val
    ∧ ((((cfg0.win 3).blk t).view.emb y : S2048x128x128.Idx) 2).val = (y 2).val := by
  obtain ⟨-, -, -, -, -, -, -, e0, e1, e2⟩ := idx_facts t
  refine ⟨?_, ?_, ?_⟩
  · show win0_3.index t (0 : Fin 3) * 64 + 1 * (y 0).val = _; rw [e0]; omega
  · show win0_3.index t (1 : Fin 3) * 128 + 1 * (y 1).val = _; rw [e1]; omega
  · show win0_3.index t (2 : Fin 3) * 128 + 1 * (y 2).val = _; rw [e2]; omega

/-- WHAT POINT `t` WRITES BACK is block `t` of `region` of the arrays as the region finds them. -/
theorem flushed_eq (c : Dev nD) (t : Fin cfg0.N) :
    (dats m 0 c).flushed 3 t = ((cfg0.win 3).blk t).view.read (Elt Ideal)
      (region (V m c main_v0) (V m c main_v1) (V m c main_v2)) := by
  show (cfg0.win 3).cut (grid0.coords t) ((dats m 0 c).after 3 t) = _
  rw [after0_3]
  unfold out0_3
  rw [View.canon_unit_zero hz3]
  simp only [View.ld_unit_zero (S := S64x128x128) hz3, View.ld_unit_zero (S := S128x128) hz2]
  funext y
  show k0_pay1 (F := Ideal) (iblk m c 0 t) (iblk m c 1 t) (iblk m c 2 t) y
    = region (V m c main_v0) (V m c main_v1) (V m c main_v2) (((cfg0.win 3).blk t).view.emb y)
  refine (pay_at (iblk m c 0 t) (iblk m c 1 t) (iblk m c 2 t) y).trans ?_
  obtain ⟨k0, k1, k2⟩ := emb_out t y
  unfold region
  refine Finset.sum_congr rfl fun a _ => ?_
  rw [iblk1_apply m c t (ix2 a (y 1))]
  have e1 : (ix2 a (y 1) : S128x128.Idx) = ix2 a ((((cfg0.win 3).blk t).view.emb y : S2048x128x128.Idx) 1) :=
    congrArg (ix2 a) (Fin.ext k1.symm)
  rw [e1]
  refine congrArg (· * _) ?_
  refine Finset.sum_congr rfl fun b _ => ?_
  rw [iblk2_apply m c t (ix2 b (y 2)), iblk0_apply m c t (ix3 (y 0) a b) (ix3 ((((cfg0.win 3).blk t).view.emb y : S2048x128x128.Idx) 0) a b) k0 rfl rfl]
  have e2 : (ix2 b (y 2) : S128x128.Idx) = ix2 b ((((cfg0.win 3).blk t).view.emb y : S2048x128x128.Idx) 2) :=
    congrArg (ix2 b) (Fin.ext k2.symm)
  rw [e2]
  rfl

/-- An index of the output array is in point `t`'s block iff each coordinate is in the block's range on its axis. -/
theorem mem_blk (t : Fin cfg0.N) (i : S2048x128x128.Idx) :
    i ∈ ((cfg0.win 3).blk t).view.set ↔ ∀ a : Fin 3, win0_3.index t a * S64x128x128.size a ≤ (i a).val ∧ (i a).val < win0_3.index t a * S64x128x128.size a + S64x128x128.size a := by
  show i ∈ ((View.whole main_v3).slice (win0_3.rect t)).set ↔ _
  rw [View.set_slice_whole, Rect.mem_set_unit]
  exact Iff.rfl

/-- Every index of the output array is in the block of the point its token falls in. -/
theorem cover (i : S2048x128x128.Idx) :
    ∃ t : Fin cfg0.N, (cfg0.win 3).flush t = true ∧ i ∈ ((cfg0.win 3).blk t).view.set := by
  have hi0 : (i 0).val < 2048 := (i 0).isLt
  have hi1 : (i 1).val < 128 := (i 1).isLt
  have hi2 : (i 2).val < 128 := (i 2).isLt
  obtain ⟨t, ht⟩ : ∃ t : Fin cfg0.N, t.val = (i 0).val / 64 :=
    ⟨⟨(i 0).val / 64, by rw [show cfg0.N = 32 from N_0]; omega⟩, rfl⟩
  obtain ⟨-, -, -, -, -, -, -, e0, e1, e2⟩ := idx_facts t
  refine ⟨t, flush0_3 t, ?_⟩
  rw [mem_blk]
  intro a
  match a with
  | ⟨0, _⟩ => show win0_3.index t (0 : Fin 3) * 64 ≤ (i 0).val ∧ (i 0).val < win0_3.index t (0 : Fin 3) * 64 + 64; rw [e0]; omega
  | ⟨1, _⟩ => show win0_3.index t (1 : Fin 3) * 128 ≤ (i 1).val ∧ (i 1).val < win0_3.index t (1 : Fin 3) * 128 + 128; rw [e1]; omega
  | ⟨2, _⟩ => show win0_3.index t (2 : Fin 3) * 128 ≤ (i 2).val ∧ (i 2).val < win0_3.index t (2 : Fin 3) * 128 + 128; rw [e2]; omega

/-- THE OUTPUT ARRAY after the region: `region` of the arrays the region finds. -/
theorem final (c : Dev nD) :
    (dats m 0 c).arrAt 3 cfg0.N = region (V m c main_v0) (V m c main_v1) (V m c main_v2) :=
  (dats m 0 c).arrAt_eq_of_cover 3 _ (fun t _ => flushed_eq m c t) cover

/-! ## The host lines around the region -/

/-- Before the region `x` is reshaped to 2048 × 128 × 128. -/
theorem V_x (c : Dev nD) (h : S2048x16384.ShapeCasts S2048x128x128) :
    (V m c main_v0 : S2048x128x128.Idx → EReal) = shapeCast S2048x128x128 (m ((c : Thread nD τ).loc main_arg0)) h := by
  show StableHlo.after hostOps0 (fun b => m (c, b)) (Proc.devRef .tc main_v0) = _
  after_results
  rfl

/-- The first factor's change of float format is the identity at the ideal values. -/
theorem V_U (c : Dev nD) : (V m c main_v1 : S128x128.Idx → EReal) = m ((c : Thread nD τ).loc main_arg1) := by
  show StableHlo.after hostOps0 (fun b => m (c, b)) (Proc.devRef .tc main_v1) = _
  after_results
  rfl

/-- The second factor's likewise. -/
theorem V_V (c : Dev nD) : (V m c main_v2 : S128x128.Idx → EReal) = m ((c : Thread nD τ).loc main_arg2) := by
  show StableHlo.after hostOps0 (fun b => m (c, b)) (Proc.devRef .tc main_v2) = _
  after_results
  rfl

/-- Entry `(t, a, b)` of the reshaped `x` is `x[t, a·128 + b]`. -/
theorem reshape_x_apply {α : Type} (x : S2048x16384.Idx → α) (h : S2048x16384.ShapeCasts S2048x128x128) (t : Fin 2048) (a b : Fin 128) :
    shapeCast S2048x128x128 x h (ix3 t a b) = x (ix2 t (flat a b)) :=
  shapeCast_apply x h _ _ (by
    rw [Shape.rowMajor_val_two, Shape.rowMajor_val_three]
    show t.val * 16384 + (a.val * 128 + b.val) = (t.val * 128 + a.val) * 128 + b.val
    omega)

/-- Entry `(t, j)` of the output reshaped back is the output's `(t, j / 128, j % 128)`. -/
theorem reshape_out_apply {α : Type} (z : S2048x128x128.Idx → α) (h : S2048x128x128.ShapeCasts S2048x16384) (t : Fin 2048) (j : Fin 16384) :
    shapeCast S2048x16384 z h (ix2 t j) = z (ix3 t (hi j) (lo j)) :=
  shapeCast_apply z h _ _ (by
    rw [Shape.rowMajor_val_three, Shape.rowMajor_val_two]
    show (t.val * 128 + j.val / 128) * 128 + j.val % 128 = t.val * 16384 + j.val
    omega)

/-- After the region the one host line reshapes the output array. -/
theorem tail_eq (c : Dev nD) (h : S2048x128x128.ShapeCasts S2048x16384) :
    (Pipeline.afterTail₀ cfgs (dats m) 0 (V0 m) [hostOps1] c main_v4 : S2048x16384.Idx → EReal)
      = shapeCast S2048x16384 (region (V m c main_v0) (V m c main_v1) (V m c main_v2)) h := by
  unfold Pipeline.afterTail₀
  show StableHlo.after hostOps1 _ (Proc.devRef .tc main_v4) = _
  after_results
  have hw : Pipeline.withArrays (cfgs 0).spec c (V0 m c) (fun w => (dats m 0 c).arrAt w (cfgs 0).N) (Proc.devRef .tc main_v3)
      = region (V m c main_v0) (V m c main_v1) (V m c main_v2) :=
    (Pipeline.withArrays_arr spec0 launch0.win.arr_inj c _ _ 3).trans (final m c)
  funext i
  exact congrFun (congrArg (fun z => shapeCast S2048x16384 z h) hw) i

/-- The result array after the whole program: `Spec.twoStage` of the three arguments as launched. -/
theorem result_eq (c : Dev nD) :
    (Pipeline.afterTail₀ cfgs (dats m) 0 (V0 m) [hostOps1] c main_v4 : S2048x16384.Idx → EReal)
      = Spec.twoStage (m ((c : Thread nD τ).loc main_arg0)) (m ((c : Thread nD τ).loc main_arg1)) (m ((c : Thread nD τ).loc main_arg2)) := by
  rw [tail_eq m c Facts₀.shapeCasts_S2048x128x128_S2048x16384]
  funext i
  obtain ⟨t, j, rfl⟩ : ∃ (t : Fin 2048) (j : Fin 16384), i = ix2 t j := ⟨i 0, i 1, eq_ix2 i⟩
  rw [reshape_out_apply]
  unfold region Spec.twoStage
  rw [V_U, V_V, V_x m c Facts₀.shapeCasts_S2048x16384_S2048x128x128]
  refine Finset.sum_congr rfl fun a _ => ?_
  refine congrArg (· * _) ?_
  refine Finset.sum_congr rfl fun b _ => ?_
  rw [reshape_x_apply]

/-- THE RUN, READ: every weakly fair execution terminates with the result array at `Spec.twoStage` of the arguments and
    the arguments unchanged. -/
theorem run : θ_run defs (onTc (τ := τ) (main (F := Ideal))) ⟨m, fun _ => 0, ρ⟩ fun r => ∀ c : Dev nD,
      r.2.mem ((c.tc : Thread nD τ).loc main_v4)
        = Spec.twoStage (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Hand

end
-- ==== Proof.RefSide.lean ====
/-
  The reference, read at an index: it is the single contraction with the Kronecker product.

  The reference broadcasts `U` to axes (0, 2) and `V` to axes (1, 3) of a 128⁴ array, multiplies, reshapes to
  16384 × 16384 and contracts `x` with it. Row `k`, column `j` of the reshaped array has flat position
  `k · 16384 + j`, whose four coordinates are `(k / 128, k % 128, j / 128, j % 128)`; so the entry is
  `U[k / 128, j / 128] · V[k % 128, j % 128]`.
-/
import proofs.«148141_j52364241273353_2_alg».proof.Proof.Gen.ReferenceIdeal.Read
import proofs.«148141_j52364241273353_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.KronLaw Cert.Spec

/-- The left operand of the contraction is read at row `t`, position `k`. -/
theorem lidx_eq (t : Fin 2048) (j k : Fin 16384) : lidx_main_v1 (ix2 t j) k = ix2 t k :=
  funext fun a => Fin.ext (by match a with | ⟨0, _⟩ => rfl | ⟨1, _⟩ => rfl)

/-- Entry `(k, j)` of the Kronecker product reads `U` at `(k / 128, j / 128)`. -/
theorem uidx_eq (t : Fin 2048) (j k : Fin 16384) :
    idx_main_call0_v0 (idx_main_call0_v2 (idx_main_v0 (ridx_main_v1 (ix2 t j) k))) = ix2 (hi k) (hi j) :=
  funext fun a => Fin.ext (by
    have hk := k.isLt; have hj := j.isLt
    match a with
    | ⟨0, _⟩ => show (k.val * 16384 + j.val) / 2097152 = k.val / 128; omega
    | ⟨1, _⟩ => show (k.val * 16384 + j.val) / 128 % 128 = j.val / 128; omega)

/-- … and `V` at `(k % 128, j % 128)`. -/
theorem vidx_eq (t : Fin 2048) (j k : Fin 16384) :
    idx_main_call0_v1 (idx_main_call0_v3 (idx_main_v0 (ridx_main_v1 (ix2 t j) k))) = ix2 (lo k) (lo j) :=
  funext fun a => Fin.ext (by
    have hk := k.isLt; have hj := j.isLt
    match a with
    | ⟨0, _⟩ => show (k.val * 16384 + j.val) / 16384 % 128 = k.val % 128; omega
    | ⟨1, _⟩ => show (k.val * 16384 + j.val) % 128 = j.val % 128; omega)

/-- The reference's result is the single contraction with the Kronecker product. -/
theorem ref_eq_flatSum (x : FVec Ideal S2048x16384 .f32) (U V : FVec Ideal S128x128 .f32) :
    val_main_v1 (F := Ideal) x U V = flatSum x U V := by
  funext i
  obtain ⟨t, j, rfl⟩ : ∃ (t : Fin 2048) (j : Fin 16384), i = ix2 t j := ⟨i 0, i 1, eq_ix2 i⟩
  rw [val_main_v1_apply]
  unfold flatSum
  refine Finset.sum_congr rfl fun k _ => ?_
  rw [val_main_v0_apply, val_main_call0_v4_apply, val_main_call0_v2_apply, val_main_call0_v0_apply,
    val_main_call0_v3_apply, val_main_call0_v1_apply, lidx_eq, uidx_eq, vidx_eq]
  rfl

end Cert.ReferenceIdeal.RefValue

end
-- ==== Proof.Finite.lean ====
/-
  What the precondition says: every entry of the three argument arrays is a real number.

  The precondition is the conjunction of three `jnp.all(|·| < +∞)`. Each `all` is a reduction by `and` that came out
  one, so the comparison holds at every index; the pattern it compares with denotes `+∞`; and an extended real whose
  absolute value `max x (-x)` lies below `+∞` is neither infinity.
-/
import proofs.«148141_j52364241273353_2_alg».proof.Proof.Gen.Pre_finite_inputs
import Idealize.ShloMosaic.Lib.ReduceAll
import Idealize.ShloMosaic.Lib.ValueIdx
import Idealize.ShloMosaic.PureOps.Ideal.Laws

noncomputable section

namespace Cert.Finite

open Idealize.ShloMosaic Cert.Pre_finite_inputs

/-- A rank-zero array has one index. -/
instance : Subsingleton S_.Idx := ⟨fun a b => funext fun d => d.elim0⟩

/-- An extended real whose absolute value compares below the pattern of `+∞` is a real number. -/
theorem real_of_abs_lt (x : EReal) (h : Ideal.cmp .olt (max x (-x)) (Ideal.ofBits .f32 0x7F800000#32) = 1#1) :
    ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- Under the precondition every entry of `x`, `U` and `V` is a real number. -/
theorem finite_of_pre (x : FVec Ideal S2048x16384 .f32) (U V : FVec Ideal S128x128 .f32)
    (h : Cert.Pre_finite_inputs.fn (F := Ideal) x U V = fun _ => 1#1) :
    (∀ i, ∃ r : ℝ, x i = (r : EReal)) ∧ (∀ i, ∃ r : ℝ, U i = (r : EReal)) ∧ (∀ i, ∃ r : ℝ, V i = (r : EReal)) := by
  have h0 := congrFun h ValueIdx.ix0
  dsimp only [Cert.Pre_finite_inputs.fn] at h0
  obtain ⟨h12, h3⟩ := IntOp.andi_eq_one.1 h0
  obtain ⟨h1, h2⟩ := IntOp.andi_eq_one.1 h12
  exact ⟨fun i => real_of_abs_lt (x i) (Host.reduce_andi_all _ _ _ _ _ h1 i),
    fun i => real_of_abs_lt (U i) (Host.reduce_andi_all _ _ _ _ _ h2 i),
    fun i => real_of_abs_lt (V i) (Host.reduce_andi_all _ _ _ _ _ h3 i)⟩

end Cert.Finite

end
-- ==== Proof.lean ====
/-
  The five claims about the Kronecker-product kernel and its reference.

  The kernel computes `x @ kron(U, V)` without ever forming the Kronecker product: each row of `x`, read as a 128 × 128
  matrix, is contracted with `V` and then with `U`. The reference forms the 16384 × 16384 product and contracts once. At
  the ideal values the kernel's result array ends at `Spec.twoStage` of the arguments (Proof/Blocks.lean, over the body's
  arithmetic in Proof/Payload.lean) and the reference's at `Spec.flatSum` (Proof/RefSide.lean); under the precondition
  every entry of the arguments is a real number (Proof/Finite.lean), and on such arrays the two are one function
  (Proof/KronLaw.lean: the inner sum distributes over the second product, and a flat position is its pair of
  coordinates). The three frames are the generated ones, and the idealization rewrote nothing.
-/
import proofs.«148141_j52364241273353_2_alg».proof.Defs
import proofs.«148141_j52364241273353_2_alg».proof.Proof.Gen.Kernel
import proofs.«148141_j52364241273353_2_alg».proof.Proof.Gen.Kernel.Skeleton
import proofs.«148141_j52364241273353_2_alg».proof.Proof.Gen.Kernel.Launch
import proofs.«148141_j52364241273353_2_alg».proof.Proof.Gen.Kernel.Points
import proofs.«148141_j52364241273353_2_alg».proof.Proof.Gen.Kernel.Frame
import proofs.«148141_j52364241273353_2_alg».proof.Proof.Gen.KernelIdeal
import proofs.«148141_j52364241273353_2_alg».proof.Proof.Gen.KernelIdeal.Skeleton
import proofs.«148141_j52364241273353_2_alg».proof.Proof.Gen.KernelIdeal.Launch
import proofs.«148141_j52364241273353_2_alg».proof.Proof.Gen.KernelIdeal.Points
import proofs.«148141_j52364241273353_2_alg».proof.Proof.Gen.KernelIdeal.Frame
import proofs.«148141_j52364241273353_2_alg».proof.Proof.Gen.ReferenceIdeal
import proofs.«148141_j52364241273353_2_alg».proof.Proof.Gen.ReferenceIdeal.Run
import proofs.«148141_j52364241273353_2_alg».proof.Proof.Gen.ReferenceIdeal.Read
import proofs.«148141_j52364241273353_2_alg».proof.Proof.Gen.Pre_finite_inputs
import proofs.«148141_j52364241273353_2_alg».proof.Proof.Blocks
import proofs.«148141_j52364241273353_2_alg».proof.Proof.RefSide
import proofs.«148141_j52364241273353_2_alg».proof.Proof.Finite
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with one result: the kernel's two small contractions and
    the reference's single contraction with the Kronecker product agree on arrays of real numbers, which the
    precondition says the arguments are. -/
theorem algebraic : Cert.algebraic_KernelIdeal_ReferenceIdeal := by
  intro m ρ m' ρ' hpre hagree
  refine ⟨fun c => Cert.Spec.twoStage
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hU, hV⟩ := Cert.Finite.finite_of_pre _ _ _ (hpre c)
  rw [Cert.ReferenceIdeal.Read.val_main_v1_eq, Cert.ReferenceIdeal.RefValue.ref_eq_flatSum,
    (hagree c).1, (hagree c).2.1, (hagree c).2.2]
  exact (Cert.Spec.twoStage_eq_flatSum _ _ _ hx hU hV).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
